-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x4 : Shape := ⟨2, ![262144, 4]⟩
abbrev S262144x128 : Shape := ⟨2, ![262144, 128]⟩
abbrev S128x128 : Shape := ⟨2, ![128, 128]⟩
abbrev S4x384 : Shape := ⟨2, ![4, 384]⟩
abbrev S384 : Shape := ⟨1, ![384]⟩
abbrev S128x256 : Shape := ⟨2, ![128, 256]⟩
abbrev S128 : Shape := ⟨1, ![128]⟩
abbrev S_ : Shape := ⟨0, ![]⟩

class Facts : Prop where
  bcast_S_S262144x4 : S_.BroadcastsInDim S262144x4 (![] : Fin 0 → Fin S262144x4.rank)
  reducesTo_S262144x4_S_d0_1 : S262144x4.ReducesTo [0, 1] S_
  h_S_ : 0 < S_.numel
  bcast_S_S262144x128 : S_.BroadcastsInDim S262144x128 (![] : Fin 0 → Fin S262144x128.rank)
  reducesTo_S262144x128_S_d0_1 : S262144x128.ReducesTo [0, 1] S_
  bcast_S_S128x128 : S_.BroadcastsInDim S128x128 (![] : Fin 0 → Fin S128x128.rank)
  reducesTo_S128x128_S_d0_1 : S128x128.ReducesTo [0, 1] S_
  bcast_S_S4x384 : S_.BroadcastsInDim S4x384 (![] : Fin 0 → Fin S4x384.rank)
  reducesTo_S4x384_S_d0_1 : S4x384.ReducesTo [0, 1] S_
  bcast_S_S384 : S_.BroadcastsInDim S384 (![] : Fin 0 → Fin S384.rank)
  reducesTo_S384_S_d0 : S384.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128x256 .f32) (main_arg8 : FVec F S128x128 .f32) (main_arg9 : FVec F S128 .f32) (main_v33 : IVec S_ 1) : IVec S_ 1 :=
  let main_v34 : FVec F S128x256 .f32 := Host.absf main_arg7
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S128x128 .f32) (main_arg5 : FVec F S4x384 .f32) (main_arg6 : FVec F S384 .f32) (main_arg7 : FVec F S128x256 .f32) (main_arg8 : FVec F S128x128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S4x384 .f32 := Host.absf main_arg5
  let main_cst_8 : FVec F S_ .f32 := constant S_ .f32 0x7F800000#32
  let main_v25 : FVec F S4x384 .f32 := broadcastInDim S4x384 ![] bcast_S_S4x384 main_cst_8
  let main_v26 : IVec S4x384 1 := cmpf .olt main_v24 main_v25
  let main_c_9 : IVec S_ 1 := constantI S_ 1 1#1
  let main_v27 : IVec S_ 1 := (fun x v => Host.reduce IntOp.andi x v reducesTo_S4x384_S_d0_1 h_S_) main_v26 main_c_9
  let main_v28 : IVec S_ 1 := andi main_v23 main_v27
  let main_v29 : FVec F S384 .f32 := Host.absf main_arg6
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg7 main_arg8 main_arg9 main_v33

def fn {F : FTy → Type} [FloatOps F] (main_arg0 : FVec F S262144x4 .f32) (main_arg1 : FVec F S262144x128 .f32) (main_arg2 : FVec F S262144x128 .f32) (main_arg3 : FVec F S128x128 .f32) (main_arg4 : FVec F S128x128 .f32) (main_arg5 : FVec F S4x384 .f32) (main_arg6 : FVec F S384 .f32) (main_arg7 : FVec F S128x256 .f32) (main_arg8 : FVec F S128x128 .f32) (main_arg9 : FVec F S128 .f32) : IVec S_ 1 :=
  let main_v0 : FVec F S262144x4 .f32 := Host.absf main_arg0
  let main_cst : FVec F S_ .f32 := constant S_ .f32 0x7F800000#32
  let main_v1 : FVec F S262144x4 .f32 := broadcastInDim S262144x4 ![] bcast_S_S262144x4 main_cst
  let main_v2 : IVec S262144x4 1 := cmpf .olt main_v0 main_v1
  let main_c : IVec S_ 1 := constantI S_ 1 1#1
  let main_v3 : IVec S_ 1 := (fun x v => Host.reduce IntOp.andi x v reducesTo_S262144x4_S_d0_1 h_S_) main_v2 main_c
  let main_v4 : FVec F S262144x128 .f32 := Host.absf main_arg1
  let main_cst_0 : FVec F S_ .f32 := constant S_ .f32 0x7F800000#32
  let main_v5 : FVec F S262144x128 .f32 := broadcastInDim S262144x128 ![] bcast_S_S262144x128 main_cst_0
  let main_v6 : IVec S262144x128 1 := cmpf .olt main_v4 main_v5
  let main_c_1 : IVec S_ 1 := constantI S_ 1 1#1
  let main_v7 : IVec S_ 1 := (fun x v => Host.reduce IntOp.andi x v reducesTo_S262144x128_S_d0_1 h_S_) main_v6 main_c_1
  let main_v8 : IVec S_ 1 := andi main_v3 main_v7
  let main_v9 : FVec F S262144x128 .f32 := Host.absf main_arg2
  let main_cst_2 : FVec F S_ .f32 := constant S_ .f32 0x7F800000#32
  let main_v10 : FVec F S262144x128 .f32 := broadcastInDim S262144x128 ![] bcast_S_S262144x128 main_cst_2
  let main_v11 : IVec S262144x128 1 := cmpf .olt main_v9 main_v10
  let main_c_3 : IVec S_ 1 := constantI S_ 1 1#1
  let main_v12 : IVec S_ 1 := (fun x v => Host.reduce IntOp.andi x v reducesTo_S262144x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_v13 main_v16
-- ==== Kernel.lean ====
abbrev S262144x4 : Shape := ⟨2, ![262144, 4]⟩
abbrev S262144x128 : Shape := ⟨2, ![262144, 128]⟩
abbrev S128x128 : Shape := ⟨2, ![128, 128]⟩
abbrev S4x384 : Shape := ⟨2, ![4, 384]⟩
abbrev S384 : Shape := ⟨1, ![384]⟩
abbrev S128x256 : Shape := ⟨2, ![128, 256]⟩
abbrev S128 : Shape := ⟨1, ![128]⟩
abbrev S256x128 : Shape := ⟨2, ![256, 128]⟩
abbrev S1x384 : Shape := ⟨2, ![1, 384]⟩
abbrev S128x384 : Shape := ⟨2, ![128, 384]⟩
abbrev S_ : Shape := ⟨0, ![]⟩
abbrev S1x256 : Shape := ⟨2, ![1, 256]⟩
abbrev S1x128 : Shape := ⟨2, ![1, 128]⟩
abbrev S4096x4 : Shape := ⟨2, ![4096, 4]⟩
abbrev S4096x128 : Shape := ⟨2, ![4096, 128]⟩
abbrev S4096x256 : Shape := ⟨2, ![4096, 256]⟩
abbrev S4096x384 : Shape := ⟨2, ![4096, 384]⟩
abbrev S4096x1 : Shape := ⟨2, ![4096, 1]⟩

abbrev nBuf : Space → Nat
  | .hbm => 18
  | .vmem => 13
  | .smem => 0
  | _ => 0

abbrev bufTy : (tb : Table) → Fin (tcTables nBuf tb) → BufTy
  | .hbm, ⟨0, _⟩ => ⟨S262144x4, .f32⟩
  | .hbm, ⟨1, _⟩ => ⟨S262144x128, .f32⟩
  | .hbm, ⟨2, _⟩ => ⟨S262144x128, .f32⟩
  | .hbm, ⟨3, _⟩ => ⟨S128x128, .f32⟩
  | .hbm, ⟨4, _⟩ => ⟨S128x128, .f32⟩
  | .hbm, ⟨5, _⟩ => ⟨S4x384, .f32⟩
  | .hbm, ⟨6, _⟩ => ⟨S384, .f32⟩
  | .hbm, ⟨7, _⟩ => ⟨S128x256, .f32⟩
  | .hbm, ⟨8, _⟩ => ⟨S128x128, .f32⟩
  | .hbm, ⟨9, _⟩ => ⟨S128, .f32⟩
  | .hbm, ⟨10, _⟩ => ⟨S256x128, .f32⟩
  | .hbm, ⟨11, _⟩ => ⟨S1x384, .f32⟩
  | .hbm, ⟨12, _⟩ => ⟨S128x384, .f32⟩
  | .hbm, ⟨13, _⟩ => ⟨S_, .f32⟩
  | .hbm, ⟨14, _⟩ => ⟨S1x256, .f32⟩
  | .hbm, ⟨15, _⟩ => ⟨S1x128, .f32⟩
  | .hbm, ⟨16, _⟩ => ⟨S1x384, .f32⟩
  | .hbm, ⟨17, _⟩ => ⟨S262144x128, .f32⟩
  | .local _ .vmem, ⟨0, _⟩ => ⟨S4096x4, .f32⟩
  | .local _ .vmem, ⟨1, _⟩ => ⟨S4096x4, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S256x128, .f32⟩
  | .local _ .vmem, ⟨7, _⟩ => ⟨S4x384, .f32⟩
  | .local _ .vmem, ⟨8, _⟩ => ⟨S1x384, .f32⟩
  | .local _ .vmem, ⟨9, _⟩ => ⟨S128x384, .f32⟩
  | .local _ .vmem, ⟨10, _⟩ => ⟨S1x384, .f32⟩
  | .local _ .vmem, ⟨11, _⟩ => ⟨S4096x128, .f32⟩
  | .local _ .vmem, ⟨12, _⟩ => ⟨S4096x128, .f32⟩
  | _, _ => ⟨S262144x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  concatenates_S128x128_S128x128_S256x128_d0 : Shape.Concatenates [S128x128, S128x128] S256x128 0
  shapeCasts_S384_S1x384 : S384.ShapeCasts S1x384
  concatenates_S128x256_S128x128_S128x384_d1 : Shape.Concatenates [S128x256, S128x128] S128x384 1
  bcast_S_S1x256 : S_.BroadcastsInDim S1x256 (![] : Fin 0 → Fin S1x256.rank)
  shapeCasts_S128_S1x128 : S128.ShapeCasts S1x128
  concatenates_S1x256_S1x128_S1x384_d1 : Shape.Concatenates [S1x256, S1x128] S1x384 1
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  concatenates_S4096x128_S4096x128_S4096x256_d1 : Shape.Concatenates [S4096x128, S4096x128] S4096x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S4096x4_S4096x4_0_0 : ∀ a, (![0, 0] : Fin 2 → Nat) a + S4096x4.size a ≤ S4096x4.size a
  h_S4096x4 : 0 < S4096x4.numel
  inb_S4x384_S4x384_0_0 : ∀ a, (![0, 0] : Fin 2 → Nat) a + S4x384.size a ≤ S4x384.size a
  h_S4x384 : 0 < S4x384.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S4096x384 : S1x384.Broadcasts S4096x384
  slices_S4096x4_o0_0_S4096x1 : S4096x4.Slices ![0, 0] S4096x1
  slices_S4x384_o0_0_S1x384 : S4x384.Slices ![0, 0] S1x384
  broadcasts_S4096x1_S4096x384 : S4096x1.Broadcasts S4096x384
  slices_S4096x4_o0_1_S4096x1 : S4096x4.Slices ![0, 1] S4096x1
  slices_S4x384_o1_0_S1x384 : S4x384.Slices ![1, 0] S1x384
  slices_S4096x4_o0_2_S4096x1 : S4096x4.Slices ![0, 2] S4096x1
  slices_S4x384_o2_0_S1x384 : S4x384.Slices ![2, 0] S1x384
  slices_S4096x4_o0_3_S4096x1 : S4096x4.Slices ![0, 3] S4096x1
  slices_S4x384_o3_0_S1x384 : S4x384.Slices ![3, 0] S1x384
  slices_S4096x384_o0_0_S4096x128 : S4096x384.Slices ![0, 0] S4096x128
  slices_S4096x384_o0_128_S4096x128 : S4096x384.Slices ![0, 128] S4096x128
  slices_S4096x384_o0_256_S4096x128 : S4096x384.Slices ![0, 256] S4096x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  dot_S4096x256_S256x128_S4096x128_1_0_0_1_n_n_wf : DotDims.WF S4096x256 S256x128 S4096x128 [1] [0] [0] [1] [] []
  dot_S4096x128_S128x384_S4096x384_1_0_0_1_n_n_wf : DotDims.WF S4096x128 S128x384 S4096x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x4.size a ≤ S262144x4.size a
  hwx0_0 : ∀ i : grid0.Coords, EltTy.bits .f32 = 32 ∨ (Rect.block (s := S262144x4) S4096x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S262144x128.size a
  hwx0_1 : ∀ i : grid0.Coords, EltTy.bits .f32 = 32 ∨ (Rect.block (s := S262144x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S262144x128.size a
  hwx0_2 : ∀ i : grid0.Coords, EltTy.bits .f32 = 32 ∨ (Rect.block (s := S262144x128) S4096x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x384.size a ≤ S4x384.size a
  hwx0_4 : ∀ i : grid0.Coords, EltTy.bits .f32 = 32 ∨ (Rect.block (s := S4x384) S4x384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x384.size a ≤ S1x384.size a
  hwx0_5 : ∀ i : grid0.Coords, EltTy.bits .f32 = 32 ∨ (Rect.block (s := S1x384) S1x384.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x384.size a ≤ S128x384.size a
  hwx0_6 : ∀ i : grid0.Coords, EltTy.bits .f32 = 32 ∨ (Rect.block (s := S128x384) S128x384.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x384.size a ≤ S1x384.size a
  hwx0_7 : ∀ i : grid0.Coords, EltTy.bits .f32 = 32 ∨ (Rect.block (s := S1x384) S1x384.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x128.size a ≤ S262144x128.size a
  hwx0_8 : ∀ i : grid0.Coords, EltTy.bits .f32 = 32 ∨ (Rect.block (s := S262144x128) S4096x128.size (cc0_transform_8 i) (hinb0_8 i)).WholeWords (EltTy.packing .f32)

variable [Facts₀]

def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x384_S4096x384_1_0_0_1_n_n : DotDims S4096x128 S128x384 S4096x384 where
  lhsContracting := [1]
  rhsContracting := [0]
  lhsNonContracting := [0]
  rhsNonContracting := [1]
  lhsBatch := []
  rhsBatch := []
  wf := dot_S4096x128_S128x384_S4096x384_1_0_0_1_n_n_wf

abbrev win0_0 : Pipeline.Window sig grid0 :=
  Pipeline.Window.ofSpec (Memref.whole main_arg0) S4096x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S4x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S128x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x384.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S4096x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S262144x4 : Shape := ⟨2, ![262144, 4]⟩
abbrev S262144x128 : Shape := ⟨2, ![262144, 128]⟩
abbrev S128x128 : Shape := ⟨2, ![128, 128]⟩
abbrev S4x384 : Shape := ⟨2, ![4, 384]⟩
abbrev S384 : Shape := ⟨1, ![384]⟩
abbrev S128x256 : Shape := ⟨2, ![128, 256]⟩
abbrev S128 : Shape := ⟨1, ![128]⟩
abbrev S262144x384 : Shape := ⟨2, ![262144, 384]⟩
abbrev S1x384 : Shape := ⟨2, ![1, 384]⟩
abbrev S262144x256 : Shape := ⟨2, ![262144, 256]⟩
abbrev S_ : Shape := ⟨0, ![]⟩
abbrev S1x128 : Shape := ⟨2, ![1, 128]⟩

abbrev nBuf : Space → Nat
  | .hbm => 54
  | .vmem => 0
  | .smem => 0
  | _ => 0

abbrev bufTy : (tb : Table) → Fin (tcTables nBuf tb) → BufTy
  | .hbm, ⟨0, _⟩ => ⟨S262144x4, .f32⟩
  | .hbm, ⟨1, _⟩ => ⟨S262144x128, .f32⟩
  | .hbm, ⟨2, _⟩ => ⟨S262144x128, .f32⟩
  | .hbm, ⟨3, _⟩ => ⟨S128x128, .f32⟩
  | .hbm, ⟨4, _⟩ => ⟨S128x128, .f32⟩
  | .hbm, ⟨5, _⟩ => ⟨S4x384, .f32⟩
  | .hbm, ⟨6, _⟩ => ⟨S384, .f32⟩
  | .hbm, ⟨7, _⟩ => ⟨S128x256, .f32⟩
  | .hbm, ⟨8, _⟩ => ⟨S128x128, .f32⟩
  | .hbm, ⟨9, _⟩ => ⟨S128, .f32⟩
  | .hbm, ⟨10, _⟩ => ⟨S262144x128, .f32⟩
  | .hbm, ⟨11, _⟩ => ⟨S262144x128, .f32⟩
  | .hbm, ⟨12, _⟩ => ⟨S262144x128, .f32⟩
  | .hbm, ⟨13, _⟩ => ⟨S262144x384, .f32⟩
  | .hbm, ⟨14, _⟩ => ⟨S1x384, .f32⟩
  | .hbm, ⟨15, _⟩ => ⟨S262144x384, .f32⟩
  | .hbm, ⟨16, _⟩ => ⟨S262144x384, .f32⟩
  | .hbm, ⟨17, _⟩ => ⟨S262144x128, .f32⟩
  | .hbm, ⟨18, _⟩ => ⟨S262144x128, .f32⟩
  | .hbm, ⟨19, _⟩ => ⟨S262144x128, .f32⟩
  | .hbm, ⟨20, _⟩ => ⟨S262144x256, .f32⟩
  | .hbm, ⟨21, _⟩ => ⟨S262144x128, .f32⟩
  | .hbm, ⟨22, _⟩ => ⟨S262144x128, .f32⟩
  | .hbm, ⟨23, _⟩ => ⟨S262144x128, .f32⟩
  | .hbm, ⟨24, _⟩ => ⟨S262144x128, .f32⟩
  | .hbm, ⟨25, _⟩ => ⟨S262144x128, .f32⟩
  | .hbm, ⟨26, _⟩ => ⟨S_, .f32⟩
  | .hbm, ⟨27, _⟩ => ⟨S262144x128, .f32⟩
  | .hbm, ⟨28, _⟩ => ⟨S262144x128, .f32⟩
  | .hbm, ⟨29, _⟩ => ⟨S_, .f32⟩
  | .hbm, ⟨30, _⟩ => ⟨S262144x128, .f32⟩
  | .hbm, ⟨31, _⟩ => ⟨S262144x128, .f32⟩
  | .hbm, ⟨32, _⟩ => ⟨S262144x128, .f32⟩
  | .hbm, ⟨33, _⟩ => ⟨S262144x128, .f32⟩
  | .hbm, ⟨34, _⟩ => ⟨S262144x128, .f32⟩
  | .hbm, ⟨35, _⟩ => ⟨S_, .f32⟩
  | .hbm, ⟨36, _⟩ => ⟨S262144x128, .f32⟩
  | .hbm, ⟨37, _⟩ => ⟨S262144x128, .f32⟩
  | .hbm, ⟨38, _⟩ => ⟨S_, .f32⟩
  | .hbm, ⟨39, _⟩ => ⟨S262144x128, .f32⟩
  | .hbm, ⟨40, _⟩ => ⟨S262144x128, .f32⟩
  | .hbm, ⟨41, _⟩ => ⟨S262144x128, .f32⟩
  | .hbm, ⟨42, _⟩ => ⟨S1x128, .f32⟩
  | .hbm, ⟨43, _⟩ => ⟨S262144x128, .f32⟩
  | .hbm, ⟨44, _⟩ => ⟨S262144x128, .f32⟩
  | .hbm, ⟨45, _⟩ => ⟨S262144x128, .f32⟩
  | .hbm, ⟨46, _⟩ => ⟨S262144x128, .f32⟩
  | .hbm, ⟨47, _⟩ => ⟨S262144x128, .f32⟩
  | .hbm, ⟨48, _⟩ => ⟨S_, .f32⟩
  | .hbm, ⟨49, _⟩ => ⟨S262144x128, .f32⟩
  | .hbm, ⟨50, _⟩ => ⟨S262144x128, .f32⟩
  | .hbm, ⟨51, _⟩ => ⟨S262144x128, .f32⟩
  | .hbm, ⟨52, _⟩ => ⟨S262144x128, .f32⟩
  | .hbm, ⟨53, _⟩ => ⟨S262144x128, .f32⟩
  | _, _ => ⟨S262144x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]

class Facts₀ : Prop where
  bcast_S384_S1x384_1 : S384.BroadcastsInDim S1x384 (![1] : Fin 1 → Fin S1x384.rank)
  bcast_S1x384_S262144x384_0_1 : S1x384.BroadcastsInDim S262144x384 (![0, 1] : Fin 2 → Fin S262144x384.rank)
  slices_S262144x384_S262144x128_0_0 : S262144x384.Slices ![0, 0] S262144x128
  slices_S262144x384_S262144x128_0_128 : S262144x384.Slices ![0, 128] S262144x128
  slices_S262144x384_S262144x128_0_256 : S262144x384.Slices ![0, 256] S262144x128
  slices_S262144x256_S262144x128_0_0 : S262144x256.Slices ![0, 0] S262144x128
  slices_S262144x256_S262144x128_0_128 : S262144x256.Slices ![0, 128] S262144x128
  bcast_S_S262144x128 : S_.BroadcastsInDim S262144x128 (![] : Fin 0 → Fin S262144x128.rank)
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  dot_S262144x128_S128x128_S262144x128_1_0_0_1_n_n_wf : DotDims.WF S262144x128 S128x128 S262144x128 [1] [0] [0] [1] [] []
  dot_S262144x4_S4x384_S262144x384_1_0_0_1_n_n_wf : DotDims.WF S262144x4 S4x384 S262144x384 [1] [0] [0] [1] [] []
  dot_S262144x128_S128x256_S262144x256_1_0_0_1_n_n_wf : DotDims.WF S262144x128 S128x256 S262144x256 [1] [0] [0] [1] [] []

variable [Facts₀]

def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf
def dot_S262144x4_S4x384_S262144x384_1_0_0_1_n_n : DotDims S262144x4 S4x384 S262144x384 where
  lhsContracting := [1]
  rhsContracting := [0]
  lhsNonContracting := [0]
  rhsNonContracting := [1]
  lhsBatch := []
  rhsBatch := []
  wf := dot_S262144x4_S4x384_S262144x384_1_0_0_1_n_n_wf
def dot_S262144x128_S128x256_S262144x256_1_0_0_1_n_n : DotDims S262144x128 S128x256 S262144x256 where
  lhsContracting := [1]
  rhsContracting := [0]
  lhsNonContracting := [0]
  rhsNonContracting := [1]
  lhsBatch := []
  rhsBatch := []
  wf := dot_S262144x128_S128x256_S262144x256_1_0_0_1_n_n_wf

class Facts : Prop extends Facts₀ where

variable [Facts]
-- ==== Proof.Cell.lean ====
/-
  One step of a recurrent cell that fuses two neighbouring hidden states, for ONE sample (one row of the batch).

  From the two neighbours' hidden rows `h1`, `h2` (128 entries each) the fused hidden row is
      h k = (∑ j, h1 j · U1 j k) + (∑ j, h2 j · U2 j k).
  From the sample's four input features `x` the input projection, 384 columns wide, is
      a c = (∑ k, x k · Wi k c) + bi c,
  read as three bands of 128 columns: the reset band (columns q), the update band (columns 128 + q) and the candidate
  band (columns 256 + q). With the hidden projections  ∑ k, h k · Whrz k (q)  and  ∑ k, h k · Whrz k (128 + q)  (no bias)
  and  (∑ k, h k · Whn k q) + bhn q,  the gates and the new hidden entry are
      r = σ (a q + ∑ k, h k · Whrz k q),       z = σ (a (128 + q) + ∑ k, h k · Whrz k (128 + q)),
      n = tanh (a (256 + q) + r · ((∑ k, h k · Whn k q) + bhn q)),       out q = (1 − z) · n + z · h q,
  with σ x = 1 / (1 + e^(−x)). Everything is over the extended reals.

  The same cell can be ARRANGED differently, and this module proves the two arrangements equal:
    • the two products h1·U1 + h2·U2 as ONE product of the 256-long row [h1 | h2] with the 256-row matrix [U1 ; U2]
      (a sum over 256 indices splits into its first and last 128: `fusedK_eq`);
    • the input projection accumulated onto the bias one feature at a time, (((bi + x0·w0) + x1·w1) + x2·w2) + x3·w3,
      instead of the sum of the four products plus the bias (`inProjK_eq`: addition is associative and commutative);
    • the three hidden projections as ONE 384-column product with [Whrz | Whn] plus the 384-long bias [0 | 0 | bhn]
      (`cellK_eq`: the reset and update bands add a zero, and x + 0 = x).
  None of these laws needs a finite operand: they hold for every extended real, the infinities included, because only
  associativity and commutativity of + and x + 0 = x are used.
-/
import Idealize.ShloMosaic.PureOps.Ideal
import Idealize.ShloMosaic.Lib.ValueIdx
import Mathlib.Algebra.BigOperators.Fin

open scoped BigOperators

noncomputable section

namespace Cert.Cell

open Idealize.ShloMosaic Idealize.ShloMosaic.ValueIdx

/-! ## Columns of the joined matrices -/

/-- Position `j` of the first half of a 256-long axis. -/
abbrev lo (j : Fin 128) : Fin 256 := ⟨j.val, by have := j.isLt; omega⟩
/-- Position `j` of the second half of a 256-long axis. -/
abbrev hi (j : Fin 128) : Fin 256 := ⟨128 + j.val, by have := j.isLt; omega⟩
/-- Column `q` of the reset band of a 384-wide axis. -/
abbrev c0 (q : Fin 128) : Fin 384 := ⟨q.val, by have := q.isLt; omega⟩
/-- Column `q` of the update band of a 384-wide axis. -/
abbrev c1 (q : Fin 128) : Fin 384 := ⟨128 + q.val, by have := q.isLt; omega⟩
/-- Column `q` of the candidate band of a 384-wide axis. -/
abbrev c2 (q : Fin 128) : Fin 384 := ⟨256 + q.val, by have := q.isLt; omega⟩

/-! ## The constant one -/

/-- The number the single-precision pattern of `1.0` denotes. -/
abbrev one : EReal := Ideal.ofBits .f32 0x3F800000#32

/-- That pattern denotes the real number one. -/
theorem one_eq : one = 1 := by
  simp [Ideal.ofBits, Ideal.ieee, -EReal.coe_mul]; norm_num

/-- The logistic function spelt with that pattern is the logistic function. -/
theorem logistic_spelt (v : EReal) : Ideal.div one (one + Ideal.exp (-v)) = Ideal.logistic v := by
  rw [one_eq]; rfl

/-! ## The cell, as the two products and three projections -/

/-- The fused hidden row: `h1 · U1 + h2 · U2`. -/
def fused (h1 h2 : Fin 128 → EReal) (U1 U2 : Fin 128 → Fin 128 → EReal) (k : Fin 128) : EReal :=
  (∑ j : Fin 128, h1 j * U1 j k) + (∑ j : Fin 128, h2 j * U2 j k)

/-- The input projection `x · Wi + bi` at column `c`. -/
def inProj (x : Fin 4 → EReal) (Wi : Fin 4 → Fin 384 → EReal) (bi : Fin 384 → EReal) (c : Fin 384) : EReal :=
  (∑ k : Fin 4, x k * Wi k c) + bi c

/-- Entry `q` of the new hidden row. -/
def cell (x : Fin 4 → EReal) (h : Fin 128 → EReal) (Wi : Fin 4 → Fin 384 → EReal) (bi : Fin 384 → EReal)
    (Whrz : Fin 128 → Fin 256 → EReal) (Whn : Fin 128 → Fin 128 → EReal) (bhn : Fin 128 → EReal) (q : Fin 128) : EReal :=
  (one - Ideal.logistic (inProj x Wi bi (c1 q) + ∑ k : Fin 128, h k * Whrz k (hi q)))
      * Ideal.tanh (inProj x Wi bi (c2 q)
          + Ideal.logistic (inProj x Wi bi (c0 q) + ∑ k : Fin 128, h k * Whrz k (lo q))
            * ((∑ k : Fin 128, h k * Whn k q) + bhn q))
    + Ideal.logistic (inProj x Wi bi (c1 q) + ∑ k : Fin 128, h k * Whrz k (hi q)) * h q

/-! ## The cell, as one joined product per stage -/

/-- The fused hidden row as one product of a 256-long row with a 256-row matrix. -/
def fusedK (hc : Fin 256 → EReal) (Uc : Fin 256 → Fin 128 → EReal) (k : Fin 128) : EReal :=
  ∑ j : Fin 256, hc j * Uc j k

/-- The input projection accumulated onto the bias, one input feature after another. -/
def inProjK (x : Fin 4 → EReal) (Wi : Fin 4 → Fin 384 → EReal) (bi : Fin 384 → EReal) (c : Fin 384) : EReal :=
  (((bi c + x 0 * Wi 0 c) + x 1 * Wi 1 c) + x 2 * Wi 2 c) + x 3 * Wi 3 c

/-- Entry `q` of the new hidden row, the three hidden projections being the three bands of ONE 384-column product
    `h · Wh + bh`. -/
def cellK (x : Fin 4 → EReal) (h : Fin 128 → EReal) (Wi : Fin 4 → Fin 384 → EReal) (bi : Fin 384 → EReal)
    (Wh : Fin 128 → Fin 384 → EReal) (bh : Fin 384 → EReal) (q : Fin 128) : EReal :=
  (one - Ideal.logistic (inProjK x Wi bi (c1 q) + ((∑ k : Fin 128, h k * Wh k (c1 q)) + bh (c1 q))))
      * Ideal.tanh (inProjK x Wi bi (c2 q)
          + Ideal.logistic (inProjK x Wi bi (c0 q) + ((∑ k : Fin 128, h k * Wh k (c0 q)) + bh (c0 q)))
            * ((∑ k : Fin 128, h k * Wh k (c2 q)) + bh (c2 q)))
    + Ideal.logistic (inProjK x Wi bi (c1 q) + ((∑ k : Fin 128, h k * Wh k (c1 q)) + bh (c1 q))) * h q

/-! ## The two arrangements are one function -/

/-- A sum over 256 indices is the sum over its first 128 plus the sum over its last 128. -/
theorem sum_halves {M : Type*} [AddCommMonoid M] (f : Fin 256 → M) :
    ∑ j : Fin 256, f j = (∑ j : Fin 128, f (lo j)) + ∑ j : Fin 128, f (hi j) :=
  Fin.sum_univ_add (a := 128) (b := 128) f

/-- One product with the joined row and the joined matrix is the sum of the two products. -/
theorem fusedK_eq (hc : Fin 256 → EReal) (Uc : Fin 256 → Fin 128 → EReal) (h1 h2 : Fin 128 → EReal)
    (U1 U2 : Fin 128 → Fin 128 → EReal) (hl : ∀ j, hc (lo j) = h1 j) (hr : ∀ j, hc (hi j) = h2 j)
    (ul : ∀ j k, Uc (lo j) k = U1 j k) (ur : ∀ j k, Uc (hi j) k = U2 j k) (k : Fin 128) :
    fusedK hc Uc k = fused h1 h2 U1 U2 k := by
  unfold fusedK fused
  rw [sum_halves]
  simp only [hl, hr, ul, ur]

/-- Accumulating the four products onto the bias gives the sum of the four products plus the bias. -/
theorem inProjK_eq (x : Fin 4 → EReal) (Wi : Fin 4 → Fin 384 → EReal) (bi : Fin 384 → EReal) (c : Fin 384) :
    inProjK x Wi bi c = inProj x Wi bi c := by
  unfold inProjK inProj
  rw [Fin.sum_univ_four]
  ac_rfl

/-- With the joined matrix `[Whrz | Whn]` and the joined bias `[0 | 0 | bhn]`, the one-product cell is the cell. -/
theorem cellK_eq (x : Fin 4 → EReal) (h : Fin 128 → EReal) (Wi : Fin 4 → Fin 384 → EReal) (bi : Fin 384 → EReal)
    (Wh : Fin 128 → Fin 384 → EReal) (bh : Fin 384 → EReal)
    (Whrz : Fin 128 → Fin 256 → EReal) (Whn : Fin 128 → Fin 128 → EReal) (bhn : Fin 128 → EReal)
    (w0 : ∀ k q, Wh k (c0 q) = Whrz k (lo q)) (w1 : ∀ k q, Wh k (c1 q) = Whrz k (hi q))
    (w2 : ∀ k q, Wh k (c2 q) = Whn k q)
    (b0 : ∀ q, bh (c0 q) = 0) (b1 : ∀ q, bh (c1 q) = 0) (b2 : ∀ q, bh (c2 q) = bhn q) (q : Fin 128) :
    cellK x h Wi bi Wh bh q = cell x h Wi bi Whrz Whn bhn q := by
  unfold cellK cell
  simp only [inProjK_eq, w0, w1, w2, b0, b1, b2, add_zero]

/-- The same, for operands given entry by entry: if the one-product cell's inputs, fused hidden row, input weights and input
    bias agree entry by entry with the cell's, and the joined matrix and joined bias are the joins, the two are equal. -/
theorem cellK_congr (x x' : Fin 4 → EReal) (h h' : Fin 128 → EReal) (Wi Wi' : Fin 4 → Fin 384 → EReal)
    (bi bi' : Fin 384 → EReal) (Wh : Fin 128 → Fin 384 → EReal) (bh : Fin 384 → EReal)
    (Whrz : Fin 128 → Fin 256 → EReal) (Whn : Fin 128 → Fin 128 → EReal) (bhn : Fin 128 → EReal)
    (hx : ∀ k, x k = x' k) (hh : ∀ k, h k = h' k) (hW : ∀ k c, Wi k c = Wi' k c) (hb : ∀ c, bi c = bi' c)
    (w0 : ∀ k q, Wh k (c0 q) = Whrz k (lo q)) (w1 : ∀ k q, Wh k (c1 q) = Whrz k (hi q))
    (w2 : ∀ k q, Wh k (c2 q) = Whn k q)
    (b0 : ∀ q, bh (c0 q) = 0) (b1 : ∀ q, bh (c1 q) = 0) (b2 : ∀ q, bh (c2 q) = bhn q) (q : Fin 128) :
    cellK x h Wi bi Wh bh q = cell x' h' Wi' bi' Whrz Whn bhn q := by
  obtain rfl : x = x' := funext hx
  obtain rfl : h = h' := funext hh
  obtain rfl : Wi = Wi' := funext fun k => funext (hW k)
  obtain rfl : bi = bi' := funext hb
  exact cellK_eq x h Wi bi Wh bh Whrz Whn bhn w0 w1 w2 b0 b1 b2 q

/-! ## The whole batch -/

/-- Row `p`, entry `q` of the result, from the ten argument arrays. -/
def Gat (X : (⟨2, ![262144, 4]⟩ : Shape).Idx → EReal) (H1 H2 : (⟨2, ![262144, 128]⟩ : Shape).Idx → EReal)
    (U1 U2 : (⟨2, ![128, 128]⟩ : Shape).Idx → EReal) (Wi : (⟨2, ![4, 384]⟩ : Shape).Idx → EReal)
    (bi : (⟨1, ![384]⟩ : Shape).Idx → EReal) (Whrz : (⟨2, ![128, 256]⟩ : Shape).Idx → EReal)
    (Whn : (⟨2, ![128, 128]⟩ : Shape).Idx → EReal) (bhn : (⟨1, ![128]⟩ : Shape).Idx → EReal)
    (p : Fin 262144) (q : Fin 128) : EReal :=
  cell (fun k => X (ix2 p k))
    (fused (fun j => H1 (ix2 p j)) (fun j => H2 (ix2 p j)) (fun j k => U1 (ix2 j k)) (fun j k => U2 (ix2 j k)))
    (fun k c => Wi (ix2 k c)) (fun c => bi (ix1 c)) (fun k c => Whrz (ix2 k c)) (fun k q => Whn (ix2 k q))
    (fun q => bhn (ix1 q)) q

/-- The result array: one cell step per row of the batch. -/
def G (X : (⟨2, ![262144, 4]⟩ : Shape).Idx → EReal) (H1 H2 : (⟨2, ![262144, 128]⟩ : Shape).Idx → EReal)
    (U1 U2 : (⟨2, ![128, 128]⟩ : Shape).Idx → EReal) (Wi : (⟨2, ![4, 384]⟩ : Shape).Idx → EReal)
    (bi : (⟨1, ![384]⟩ : Shape).Idx → EReal) (Whrz : (⟨2, ![128, 256]⟩ : Shape).Idx → EReal)
    (Whn : (⟨2, ![128, 128]⟩ : Shape).Idx → EReal) (bhn : (⟨1, ![128]⟩ : Shape).Idx → EReal) :
    (⟨2, ![262144, 128]⟩ : Shape).Idx → EReal :=
  fun i => Gat X H1 H2 U1 U2 Wi bi Whrz Whn bhn (i 0) (i 1)

end Cert.Cell

end
-- ==== Proof.RefCell.lean ====
/-
  The reference program computes the cell of Cell.lean, row by row.

  Read one operation at a time, the reference's result at row `p`, column `q` is
      (1 − z) · n + z · h q
  with  h = h1·U1 + h2·U2  (two products over 128 indices, added),  a = x·Wi + bi  (a product over the 4 input
  features plus the bias), the reset gate  r = 1 / (1 + e^(−(a q + (h·Whrz) q))),  the update gate
  z = 1 / (1 + e^(−(a (128+q) + (h·Whrz) (128+q)))),  and  n = tanh (a (256+q) + r · ((h·Whn) q + bhn q)).
  Each slice of the 384-wide projection and of the 256-wide product picks a band of columns; each bias is a vector
  repeated down the rows. Spelling 1 / (1 + e^(−v)) with the pattern of 1.0 is the logistic function, so this is
  `Cell.G` entry by entry.
-/
import proofs.«127192_j5308579578437_2_alg».proof.Proof.Gen.ReferenceIdeal.Read
import proofs.«127192_j5308579578437_2_alg».proof.Proof.Cell

open scoped BigOperators

noncomputable section

namespace Cert.RefCell

open Cert.ReferenceIdeal Cert.ReferenceIdeal.Read Cert.Cell Idealize.ShloMosaic Idealize.ShloMosaic.ValueIdx

/-! ## Where each operation reads its operands -/

theorem l0 (p : Fin 262144) (b k : Fin 128) : lidx_main_v0 (ix2 p b) k = ix2 p k :=
  funext fun a => by match a with | ⟨0, _⟩ => rfl | ⟨1, _⟩ => rfl
theorem r0 (p : Fin 262144) (b k : Fin 128) : ridx_main_v0 (ix2 p b) k = ix2 k b :=
  funext fun a => by match a with | ⟨0, _⟩ => rfl | ⟨1, _⟩ => rfl
theorem l1 (p : Fin 262144) (b k : Fin 128) : lidx_main_v1 (ix2 p b) k = ix2 p k :=
  funext fun a => by match a with | ⟨0, _⟩ => rfl | ⟨1, _⟩ => rfl
theorem r1 (p : Fin 262144) (b k : Fin 128) : ridx_main_v1 (ix2 p b) k = ix2 k b :=
  funext fun a => by match a with | ⟨0, _⟩ => rfl | ⟨1, _⟩ => rfl
theorem l3 (p : Fin 262144) (c : Fin 384) (k : Fin 4) : lidx_main_v3 (ix2 p c) k = ix2 p k :=
  funext fun a => by match a with | ⟨0, _⟩ => rfl | ⟨1, _⟩ => rfl
theorem r3 (p : Fin 262144) (c : Fin 384) (k : Fin 4) : ridx_main_v3 (ix2 p c) k = ix2 k c :=
  funext fun a => by match a with | ⟨0, _⟩ => rfl | ⟨1, _⟩ => rfl
theorem l10 (p : Fin 262144) (d : Fin 256) (k : Fin 128) : lidx_main_v10 (ix2 p d) k = ix2 p k :=
  funext fun a => by match a with | ⟨0, _⟩ => rfl | ⟨1, _⟩ => rfl
theorem r10 (p : Fin 262144) (d : Fin 256) (k : Fin 128) : ridx_main_v10 (ix2 p d) k = ix2 k d :=
  funext fun a => by match a with | ⟨0, _⟩ => rfl | ⟨1, _⟩ => rfl
theorem l27 (p : Fin 262144) (b k : Fin 128) : lidx_main_v27 (ix2 p b) k = ix2 p k :=
  funext fun a => by match a with | ⟨0, _⟩ => rfl | ⟨1, _⟩ => rfl
theorem r27 (p : Fin 262144) (b k : Fin 128) : ridx_main_v27 (ix2 p b) k = ix2 k b :=
  funext fun a => by match a with | ⟨0, _⟩ => rfl | ⟨1, _⟩ => rfl
theorem i4 (u : Fin 1) (c : Fin 384) : idx_main_v4 (ix2 u c) = ix1 c :=
  funext fun a => by match a with | ⟨0, _⟩ => rfl
theorem i5 (p : Fin 262144) (c : Fin 384) : idx_main_v5 (ix2 p c) = ix2 (0 : Fin 1) c :=
  funext fun a => by match a with | ⟨0, _⟩ => rfl | ⟨1, _⟩ => rfl
theorem i7 (p : Fin 262144) (q : Fin 128) : idx_main_v7 (ix2 p q) = ix2 p (c0 q) :=
  funext fun a => by match a with | ⟨0, _⟩ => rfl | ⟨1, _⟩ => rfl
theorem i8 (p : Fin 262144) (q : Fin 128) : idx_main_v8 (ix2 p q) = ix2 p (c1 q) :=
  funext fun a => by match a with | ⟨0, _⟩ => rfl | ⟨1, _⟩ => rfl
theorem i9 (p : Fin 262144) (q : Fin 128) : idx_main_v9 (ix2 p q) = ix2 p (c2 q) :=
  funext fun a => by match a with | ⟨0, _⟩ => rfl | ⟨1, _⟩ => rfl
theorem i11 (p : Fin 262144) (q : Fin 128) : idx_main_v11 (ix2 p q) = ix2 p (lo q) :=
  funext fun a => by match a with | ⟨0, _⟩ => rfl | ⟨1, _⟩ => rfl
theorem i12 (p : Fin 262144) (q : Fin 128) : idx_main_v12 (ix2 p q) = ix2 p (hi q) :=
  funext fun a => by match a with | ⟨0, _⟩ => rfl | ⟨1, _⟩ => rfl
theorem i28 (u : Fin 1) (q : Fin 128) : idx_main_v28 (ix2 u q) = ix1 q :=
  funext fun a => by match a with | ⟨0, _⟩ => rfl
theorem i29 (p : Fin 262144) (q : Fin 128) : idx_main_v29 (ix2 p q) = ix2 (0 : Fin 1) q :=
  funext fun a => by match a with | ⟨0, _⟩ => rfl | ⟨1, _⟩ => rfl

variable (X : S262144x4.Idx → EReal) (H1 H2 : S262144x128.Idx → EReal) (U1 U2 : S128x128.Idx → EReal)
  (Wi : S4x384.Idx → EReal) (bi : S384.Idx → EReal) (Whrz : S128x256.Idx → EReal) (Whn : S128x128.Idx → EReal)
  (bhn : S128.Idx → EReal)

/-! ## The stages, row by row -/

/-- The sum of the two products is the fused hidden row. -/
theorem hidden_at (p : Fin 262144) (k : Fin 128) :
    val_main_v2 (F := Ideal) H1 H2 U1 U2 (ix2 p k)
      = fused (fun j => H1 (ix2 p j)) (fun j => H2 (ix2 p j)) (fun j k => U1 (ix2 j k)) (fun j k => U2 (ix2 j k)) k := by
  rw [val_main_v2_apply, val_main_v0_apply, val_main_v1_apply, Ideal.addf_def]
  unfold fused
  congr 1
  · exact Finset.sum_congr rfl fun j _ => by rw [l0, r0]
  · exact Finset.sum_congr rfl fun j _ => by rw [l1, r1]

/-- The product with `Wi` plus the repeated bias is the input projection. -/
theorem proj_at (p : Fin 262144) (c : Fin 384) :
    val_main_v6 (F := Ideal) X Wi bi (ix2 p c)
      = inProj (fun k => X (ix2 p k)) (fun k c => Wi (ix2 k c)) (fun c => bi (ix1 c)) c := by
  rw [val_main_v6_apply, val_main_v3_apply, val_main_v5_apply, i5, val_main_v4_apply, i4, Ideal.addf_def]
  unfold inProj
  congr 1
  exact Finset.sum_congr rfl fun k _ => by rw [l3, r3]

/-- The product of the fused hidden rows with `Whrz`, at column `d` of its 256. -/
theorem hrz_at (p : Fin 262144) (d : Fin 256) :
    val_main_v10 (F := Ideal) H1 H2 U1 U2 Whrz (ix2 p d)
      = ∑ k : Fin 128, fused (fun j => H1 (ix2 p j)) (fun j => H2 (ix2 p j)) (fun j k => U1 (ix2 j k))
          (fun j k => U2 (ix2 j k)) k * Whrz (ix2 k d) := by
  rw [val_main_v10_apply]
  exact Finset.sum_congr rfl fun k _ => by rw [l10, r10, hidden_at]

/-- The product of the fused hidden rows with `Whn`, plus the repeated bias `bhn`. -/
theorem hn_at (p : Fin 262144) (q : Fin 128) :
    val_main_v30 (F := Ideal) H1 H2 U1 U2 Whn bhn (ix2 p q)
      = (∑ k : Fin 128, fused (fun j => H1 (ix2 p j)) (fun j => H2 (ix2 p j)) (fun j k => U1 (ix2 j k))
          (fun j k => U2 (ix2 j k)) k * Whn (ix2 k q)) + bhn (ix1 q) := by
  rw [val_main_v30_apply, val_main_v27_apply, val_main_v29_apply, i29, val_main_v28_apply, i28, Ideal.addf_def]
  congr 1
  exact Finset.sum_congr rfl fun k _ => by rw [l27, r27, hidden_at]

/-- The reset gate. -/
theorem reset_at (p : Fin 262144) (q : Fin 128) :
    val_main_v19 (F := Ideal) X H1 H2 U1 U2 Wi bi Whrz (ix2 p q)
      = Ideal.logistic (val_main_v6 (F := Ideal) X Wi bi (ix2 p (c0 q))
          + val_main_v10 (F := Ideal) H1 H2 U1 U2 Whrz (ix2 p (lo q))) := by
  rw [val_main_v19_apply, val_main_v18_apply, val_main_cst_0_apply, val_main_v17_apply, val_main_v16_apply,
    val_main_cst_apply, val_main_v15_apply, val_main_v14_apply, val_main_v13_apply, val_main_v7_apply, i7,
    val_main_v11_apply, i11]
  exact logistic_spelt _

/-- The update gate. -/
theorem update_at (p : Fin 262144) (q : Fin 128) :
    val_main_v26 (F := Ideal) X H1 H2 U1 U2 Wi bi Whrz (ix2 p q)
      = Ideal.logistic (val_main_v6 (F := Ideal) X Wi bi (ix2 p (c1 q))
          + val_main_v10 (F := Ideal) H1 H2 U1 U2 Whrz (ix2 p (hi q))) := by
  rw [val_main_v26_apply, val_main_v25_apply, val_main_cst_2_apply, val_main_v24_apply, val_main_v23_apply,
    val_main_cst_1_apply, val_main_v22_apply, val_main_v21_apply, val_main_v20_apply, val_main_v8_apply, i8,
    val_main_v12_apply, i12]
  exact logistic_spelt _

/-! ## The reference is the cell -/

/-- The reference's result, as a function of its ten arguments, is `Cell.G` of them. -/
theorem ref_eq :
    val_main_v38 (F := Ideal) X H1 H2 U1 U2 Wi bi Whrz Whn bhn = G X H1 H2 U1 U2 Wi bi Whrz Whn bhn := by
  funext i
  obtain ⟨p, q, rfl⟩ : ∃ (p : Fin 262144) (q : Fin 128), i = ix2 p q := ⟨i 0, i 1, eq_ix2 i⟩
  rw [val_main_v38_apply, val_main_v36_apply, val_main_v35_apply, val_main_v34_apply, val_main_cst_3_apply,
    val_main_v33_apply, val_main_v32_apply, val_main_v9_apply, i9, val_main_v31_apply, val_main_v37_apply,
    update_at, reset_at, hn_at, hidden_at, proj_at, proj_at, proj_at, hrz_at, hrz_at]
  rfl

end Cert.RefCell

end
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.LibDotRowRow.lean ====
/-
  A contraction of the SECOND axes of two matrices, read as a plain sum.

  Take operands of shapes [A, K] and [B, K] and a result of shape [A, B], with dimension numbers that say: no batch
  axes; each operand keeps its axis 0; axis 1 of the left is contracted against axis 1 of the right (the product of the
  left matrix with the TRANSPOSE of the right one, without the transpose being formed). The contraction's own index set
  is then a one-axis shape of extent K, and the sum over it of x (left index) * y (right index) at the result index
  (p, q) is ∑ k < K, x (p, k) * y (q, k): on its kept axis each operand reads the result's coordinate (the left the row
  coordinate, the right the column coordinate), on its contracted axis the contraction's one coordinate.

  Stated for ANY record with these dimension numbers and for any A, K, B. The extended reals enter only as the type the
  products are taken in: nothing here uses more than the sum's re-indexing along a bijection.
-/
import Idealize.ShloMosaic.Lib.ValueIdx
import Idealize.ShloMosaic.PureOps.Ideal.Laws

open scoped BigOperators

namespace Cert.RowRowDot

open Idealize.ShloMosaic Idealize.ShloMosaic.ValueIdx

variable {A K B : Nat} (d : DotDims ⟨2, ![A, K]⟩ ⟨2, ![B, K]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 0) the right operand's index is the result's COLUMN coordinate: the result's axes are the
    batch axes (none), then the left's kept axes (one), then the right's kept axes, so the right's kept axis is axis 1
    of the result. -/
theorem rhs_row (hlb : d.lhsBatch = []) (hln : d.lhsNonContracting = [0]) (hrb : d.rhsBatch = [])
    (hrn : d.rhsNonContracting = [0]) (j : (⟨2, ![A, B]⟩ : Shape).Idx) (k : d.contr.Idx) :
    (d.rhsIdx j k 0).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row p of the left and row q of the right. -/
theorem sum_eq (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K)
    (x : (⟨2, ![A, K]⟩ : Shape).Idx → EReal) (y : (⟨2, ![B, K]⟩ : Shape).Idx → EReal) (p : Fin A) (q : Fin B) :
    ∑ k : d.contr.Idx, x (d.lhsIdx (ix2 p q) k) * y (d.rhsIdx (ix2 p q) k) = ∑ k : Fin K, x (ix2 p k) * y (ix2 q k) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact rhs_row d hlb hln hrb hrn _ _
    | ⟨1, _⟩ => exact (d.rhsIdx_val_of_single hrc _ _).trans hk)
  rw [el, er]

end Cert.RowRowDot
-- ==== Proof.LibZeroAccDots.lean ====
/-
  Two matrix products into a zero accumulator, read at an index as plain sums, for operands of any float formats.

  At the ideal values a matrix product unit adds, to the accumulator's entry, the sum over the contraction's index set of
  the products of the operands' entries; the operands' float formats play no part, every float being an extended real.
  When the accumulator is the zero splat there is no accumulator term, and for the two common two-dimensional shapes the
  contraction's index set is one axis of extent K:

    rows by columns,  [A, K] × [K, B] → [A, B]  (left axis 1 against right axis 0):  the entry at (p, q) is
      ∑ k < K, x (p, k) · y (k, q);
    rows by rows,     [A, K] × [B, K] → [A, B]  (left axis 1 against right axis 1, the product with the transposed right
      matrix, no transpose formed):                                                   the entry at (p, q) is
      ∑ k < K, x (p, k) · y (q, k).

  Both are stated for ANY record with those dimension numbers, any contraction precision, and any pair of operand formats
  (a product of two bf16 matrices into an f32 accumulator is the usual case).
-/
import proofs.«127192_j5308579578437_2_alg».proof.Proof.LibPlainDot
import proofs.«127192_j5308579578437_2_alg».proof.Proof.LibDotRowRow
import Idealize.ShloMosaic.PureOps.Ideal.Laws
import Idealize.ShloMosaic.Lib.ValueIdx

open scoped BigOperators

namespace Cert.ZeroAccDots

open Idealize.ShloMosaic Idealize.ShloMosaic.ValueIdx

/-- Rows by columns into the zero splat, at `(p, q)`: the plain sum along row `p` of the left operand and column `q`
    of the right. -/
theorem rows_columns {A K B : Nat} {φ₁ φ₂ : FTy} (d : DotDims ⟨2, ![A, K]⟩ ⟨2, ![K, B]⟩ ⟨2, ![A, B]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K) (prec : Option ContractPrecision)
    (x : FVec Ideal ⟨2, ![A, K]⟩ φ₁) (y : FVec Ideal ⟨2, ![K, B]⟩ φ₂) (p : Fin A) (q : Fin B) :
    FloatOps.matmul d prec x y (constant (F := Ideal) ⟨2, ![A, B]⟩ .f32 0x00000000#32) (ix2 p q)
      = ∑ k : Fin K, x (ix2 p k) * y (ix2 k q) :=
  (Ideal.matmul_constant_zero_apply d prec x y (ix2 p q)).trans
    (Cert.PlainDot.sum_eq d hlb hln hlc hrb hrn hrc hr hs x y p q)

/-- Rows by rows into the zero splat, at `(p, q)`: the plain sum along row `p` of the left operand and row `q` of the
    right. -/
theorem rows_rows {A K B : Nat} {φ₁ φ₂ : FTy} (d : DotDims ⟨2, ![A, K]⟩ ⟨2, ![B, K]⟩ ⟨2, ![A, B]⟩)
    (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K) (prec : Option ContractPrecision)
    (x : FVec Ideal ⟨2, ![A, K]⟩ φ₁) (y : FVec Ideal ⟨2, ![B, K]⟩ φ₂) (p : Fin A) (q : Fin B) :
    FloatOps.matmul d prec x y (constant (F := Ideal) ⟨2, ![A, B]⟩ .f32 0x00000000#32) (ix2 p q)
      = ∑ k : Fin K, x (ix2 p k) * y (ix2 q k) :=
  (Ideal.matmul_constant_zero_apply d prec x y (ix2 p q)).trans
    (Cert.RowRowDot.sum_eq d hlb hln hlc hrb hrn hrc hr hs x y p q)

end Cert.ZeroAccDots
-- ==== Proof.LibColumnLayout.lean ====
/-
  Column vectors read at an index: a length-`a` vector viewed as an `[a, 1]` column and back, and a column repeated
  along the second axis. Row-major position is preserved by the two casts (the unit axis contributes nothing to it), and
  a broadcast reads a unit axis of its operand at coordinate zero.
-/
import Idealize.ShloMosaic.Lib.ValueIdx
import Idealize.ShloMosaic.Lib.Pipeline.Value

noncomputable section

namespace Cert.ColumnLayout

open Idealize.ShloMosaic Idealize.ShloMosaic.ValueIdx

variable {α : Type}

/-- An `[a]` array cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.ColumnLayout

end
-- ==== Proof.Body.lean ====
/-
  What the kernel body writes for one block of 4096 rows, entry by entry.

  The body loads the block's rows of the inputs (4 features per row) and of the two neighbours' hidden states (128 entries
  per row each), and, whole, the joined matrix [U1 ; U2] (256 × 128), the input weights (4 × 384) with their bias row, and the
  joined matrix [Whrz | Whn] (128 × 384) with its bias row. Row `y`, column `q` of what it stores is the cell of Cell.lean in its
  one-product arrangement (`Cell.cellK`):
    • the fused hidden row is ONE product of the row [h1 | h2] (the two loaded rows laid side by side) with the 256-row matrix,
      accumulated from zero, so it is the plain sum over the 256 positions (`fused_at`);
    • the input projection starts from the bias row repeated down the block and adds, one feature after another, the
      feature's column (repeated across the 384 columns) times that feature's row of the weights (repeated down the rows)
      (`proj_at`);
    • the hidden projection is ONE product of the fused hidden rows with the 128 × 384 matrix, accumulated from zero, plus
      the bias row repeated down the block; its three bands of 128 columns are the reset, update and candidate parts;
    • a change of float format (to sixteen bits before each product) is the identity on extended reals, and a cast of a
      shape to itself is the identity.
-/
import proofs.«127192_j5308579578437_2_alg».proof.Proof.Gen.KernelIdeal.Frame
import proofs.«127192_j5308579578437_2_alg».proof.Proof.Cell
import proofs.«127192_j5308579578437_2_alg».proof.Proof.LibZeroAccDots
import proofs.«127192_j5308579578437_2_alg».proof.Proof.LibColumnLayout
import Idealize.ShloMosaic.Lib.ValueLayout
import Idealize.ShloMosaic.Lib.Pipeline.Value
import Idealize.ShloMosaic.Lib.ValueIdx

open scoped BigOperators

noncomputable section

namespace Cert.Body

open Cert.KernelIdeal Cert.KernelIdeal.Gen Cert.Cell Idealize.ShloMosaic Idealize.ShloMosaic.ValueIdx

/-! ## The layout operations of the body, read at an entry -/

/-- Feature `k` of the block's inputs, cut out as a column and repeated across the 384 columns, reads at `(y, c)` the
    input's entry `(y, k)`. -/
theorem feature_col (v9 : S4096x4.Idx → EReal) (o : Nat) (h : S4096x4.Slices ![0, o] S4096x1)
    (h' : S4096x1.Broadcasts S4096x384) (k : Fin 4) (hk : k.val = o) (y : Fin 4096) (c : Fin 384) :
    broadcastTo S4096x384 (extractStridedSlice S4096x1 ![0, o] v9 h) h' (ix2 y c) = v9 (ix2 y k) :=
  (Cert.ColumnLayout.broadcastTo_a1_ab_apply _ h' y c).trans
    (slice2_axis1_apply o v9 h y (0 : Fin 1) k (by show k.val = o + 0; omega))

/-- Row `k` of the input weights, cut out and repeated down the 4096 rows, reads at `(y, c)` the weights' entry `(k, c)`. -/
theorem weight_row (v10 : S4x384.Idx → EReal) (o : Nat) (h : S4x384.Slices ![o, 0] S1x384)
    (h' : S1x384.Broadcasts S4096x384) (k : Fin 4) (hk : k.val = o) (y : Fin 4096) (c : Fin 384) :
    broadcastTo S4096x384 (extractStridedSlice S1x384 ![o, 0] v10 h) h' (ix2 y c) = v10 (ix2 k c) :=
  (broadcastTo_1b_ab_apply _ h' y c).trans
    (slice2_axis0_apply o v10 h (0 : Fin 1) c k (by show k.val = o + 0; omega))

/-- A bias row repeated down the 4096 rows reads at `(y, c)` the row's entry `c`. -/
theorem bias_rows (v : S1x384.Idx → EReal) (h' : S1x384.Broadcasts S4096x384) (y : Fin 4096) (c : Fin 384) :
    broadcastTo S4096x384 v h' (ix2 y c) = v (ix2 (0 : Fin 1) c) :=
  broadcastTo_1b_ab_apply v h' y c

/-- Column `o + q` of a 384-wide block, cut out as a band of 128 columns. -/
theorem band (v : S4096x384.Idx → EReal) (o : Nat) (h : S4096x384.Slices ![0, o] S4096x128) (y : Fin 4096) (q : Fin 128)
    (k : Fin 384) (hk : k.val = o + q.val) :
    extractStridedSlice S4096x128 ![0, o] v h (ix2 y q) = v (ix2 y k) :=
  slice2_axis1_apply o v h y q k hk

/-! ## The two rows laid side by side -/

/-- The first 128 positions of the joined row are the first row's. -/
theorem join_lo (a b : S4096x128.Idx → EReal) (h : Shape.Concatenates [S4096x128, S4096x128] S4096x256 1)
    (y : Fin 4096) (j : Fin 128) :
    concatenate S4096x256 1 [⟨S4096x128, a⟩, ⟨S4096x128, b⟩] h (ix2 y (lo j)) = a (ix2 y j) :=
  concatenate_pair_apply_left 1 a b h (ix2 y (lo j)) rfl (ix2 y j) (fun d => by
    match d with
    | ⟨0, _⟩ => rfl
    | ⟨1, _⟩ => rfl)

/-- The last 128 positions of the joined row are the second row's. -/
theorem join_hi (a b : S4096x128.Idx → EReal) (h : Shape.Concatenates [S4096x128, S4096x128] S4096x256 1)
    (y : Fin 4096) (j : Fin 128) :
    concatenate S4096x256 1 [⟨S4096x128, a⟩, ⟨S4096x128, b⟩] h (ix2 y (hi j)) = b (ix2 y j) :=
  concatenate_pair_apply_right 1 a b h (ix2 y (hi j)) rfl rfl (ix2 y j) (fun d hd => by
    match d with
    | ⟨0, _⟩ => rfl
    | ⟨1, _⟩ => exact absurd rfl hd) (by show j.val + 128 = 128 + j.val; omega)

/-! ## The stages of the body -/

/-- The fused hidden rows of the block: one product over the 256 joined positions. -/
theorem fused_at (v0 v2 : Vec Ideal S4096x128 .f32) (v5 : Vec Ideal S256x128 .f32) (y : Fin 4096) (k : Fin 128) :
    k0_pay2 v0 v2 v5 (ix2 y k)
      = fusedK (fun j => concatenate S4096x256 1 [⟨S4096x128, v0⟩, ⟨S4096x128, v2⟩]
          concatenates_S4096x128_S4096x128_S4096x256_d1 (ix2 y j)) (fun j k => v5 (ix2 j k)) k := by
  unfold k0_pay2 fusedK
  dsimp only
  rw [shapeCast_self]
  exact Cert.ZeroAccDots.rows_columns dot_S4096x256_S256x128_S4096x128_1_0_0_1_n_n rfl rfl rfl rfl rfl rfl rfl rfl none _ _ y k

/-- The input projection of the block, accumulated onto the bias one feature after another. -/
theorem proj_at (v9 : Vec Ideal S4096x4 .f32) (v10 : Vec Ideal S4x384 .f32) (v11 : Vec Ideal S1x384 .f32)
    (y : Fin 4096) (c : Fin 384) :
    k0_pay3 v9 v10 v11 (ix2 y c)
      = inProjK (fun k => v9 (ix2 y k)) (fun k c => v10 (ix2 k c)) (fun c => v11 (ix2 (0 : Fin 1) c)) c := by
  unfold k0_pay3 inProjK
  dsimp only
  rw [shapeCast_self, shapeCast_self]
  simp only [addf_apply, mulf_apply]
  rw [bias_rows, feature_col v9 0 _ _ 0 rfl, weight_row v10 0 _ _ 0 rfl, feature_col v9 1 _ _ 1 rfl,
    weight_row v10 1 _ _ 1 rfl, feature_col v9 2 _ _ 2 rfl, weight_row v10 2 _ _ 2 rfl, feature_col v9 3 _ _ 3 rfl,
    weight_row v10 3 _ _ 3 rfl]

/-- A vector logistic reads entry by entry. -/
theorem logistic_at {s : Shape} {φ : FTy} (a : FVec Ideal s φ) (i : s.Idx) : logistic a i = Ideal.logistic (a i) := rfl

/-- A vector hyperbolic tangent reads entry by entry. -/
theorem tanh_at {s : Shape} {φ : FTy} (a : FVec Ideal s φ) (i : s.Idx) : tanh a i = Ideal.tanh (a i) := rfl

/-- The hidden projection of the block: one product over the 128 hidden positions, accumulated from zero, plus the bias row
    repeated down the block. -/
theorem hproj_at (v8 : FVec Ideal S4096x128 .f32) (v43 : FVec Ideal S128x384 .f32) (v45 : S1x384.Idx → EReal)
    (hb : FTy.bits .bf16 < FTy.bits .f32) (h' : S1x384.Broadcasts S4096x384) (y : Fin 4096) (c : Fin 384) :
    addf (matmul dot_S4096x128_S128x384_S4096x384_1_0_0_1_n_n none (truncf .bf16 v8 hb) (truncf .bf16 v43 hb)
        (constant S4096x384 .f32 0x00000000#32)) (broadcastTo S4096x384 v45 h') (ix2 y c)
      = (∑ k : Fin 128, v8 (ix2 y k) * v43 (ix2 k c)) + v45 (ix2 (0 : Fin 1) c) :=
  congrArg₂ (· + ·)
    (Cert.ZeroAccDots.rows_columns dot_S4096x128_S128x384_S4096x384_1_0_0_1_n_n rfl rfl rfl rfl rfl rfl rfl rfl none
      (truncf .bf16 v8 hb) (truncf .bf16 v43 hb) y c)
    (bias_rows v45 h' y c)

/-- The gates and the new hidden entry, from the fused hidden rows `v8`, the three bands `v39`, `v40`, `v41` of the input
    projection, the 128 × 384 matrix `v43` and its bias row `v45`. -/
theorem gates_at (v8 v39 v40 v41 : FVec Ideal S4096x128 .f32) (v43 : FVec Ideal S128x384 .f32) (v45 : Vec Ideal S1x384 .f32)
    (y : Fin 4096) (q : Fin 128) :
    k0_pay1 v8 v39 v40 v41 v43 v45 (ix2 y q)
      = (one - Ideal.logistic (v40 (ix2 y q)
            + ((∑ k : Fin 128, v8 (ix2 y k) * v43 (ix2 k (c1 q))) + v45 (ix2 (0 : Fin 1) (c1 q)))))
          * Ideal.tanh (v41 (ix2 y q)
              + Ideal.logistic (v39 (ix2 y q)
                  + ((∑ k : Fin 128, v8 (ix2 y k) * v43 (ix2 k (c0 q))) + v45 (ix2 (0 : Fin 1) (c0 q))))
                * ((∑ k : Fin 128, v8 (ix2 y k) * v43 (ix2 k (c2 q))) + v45 (ix2 (0 : Fin 1) (c2 q))))
        + Ideal.logistic (v40 (ix2 y q)
            + ((∑ k : Fin 128, v8 (ix2 y k) * v43 (ix2 k (c1 q))) + v45 (ix2 (0 : Fin 1) (c1 q)))) * v8 (ix2 y q) := by
  unfold k0_pay1
  rw [shapeCast_self]
  simp only [addf_apply, mulf_apply, subf_apply, broadcast_apply, logistic_at, tanh_at]
  rw [band _ 0 _ y q (c0 q) (by show q.val = 0 + q.val; omega),
    band _ 128 _ y q (c1 q) (by show 128 + q.val = 128 + q.val; rfl),
    band _ 256 _ y q (c2 q) (by show 256 + q.val = 256 + q.val; rfl)]
  simp only [hproj_at]
  rfl

/-! ## The three bands of the input projection, and the matrix loaded whole -/

theorem reset_band (v9 : Vec Ideal S4096x4 .f32) (v10 : Vec Ideal S4x384 .f32) (v11 : Vec Ideal S1x384 .f32)
    (y : Fin 4096) (q : Fin 128) :
    k0_pay4 v9 v10 v11 (ix2 y q)
      = inProjK (fun k => v9 (ix2 y k)) (fun k c => v10 (ix2 k c)) (fun c => v11 (ix2 (0 : Fin 1) c)) (c0 q) := by
  unfold k0_pay4
  exact (band _ 0 _ y q (c0 q) (by show q.val = 0 + q.val; omega)).trans (proj_at v9 v10 v11 y (c0 q))

theorem update_band (v9 : Vec Ideal S4096x4 .f32) (v10 : Vec Ideal S4x384 .f32) (v11 : Vec Ideal S1x384 .f32)
    (y : Fin 4096) (q : Fin 128) :
    k0_pay5 v9 v10 v11 (ix2 y q)
      = inProjK (fun k => v9 (ix2 y k)) (fun k c => v10 (ix2 k c)) (fun c => v11 (ix2 (0 : Fin 1) c)) (c1 q) := by
  unfold k0_pay5
  exact (band _ 128 _ y q (c1 q) rfl).trans (proj_at v9 v10 v11 y (c1 q))

theorem candidate_band (v9 : Vec Ideal S4096x4 .f32) (v10 : Vec Ideal S4x384 .f32) (v11 : Vec Ideal S1x384 .f32)
    (y : Fin 4096) (q : Fin 128) :
    k0_pay6 v9 v10 v11 (ix2 y q)
      = inProjK (fun k => v9 (ix2 y k)) (fun k c => v10 (ix2 k c)) (fun c => v11 (ix2 (0 : Fin 1) c)) (c2 q) := by
  unfold k0_pay6
  exact (band _ 256 _ y q (c2 q) rfl).trans (proj_at v9 v10 v11 y (c2 q))

theorem whole_matrix (v42 : Vec Ideal S128x384 .f32) : k0_pay7 v42 = v42 := by
  unfold k0_pay7
  exact shapeCast_self _ _

/-! ## The stored block -/

theorem zero_offsets : (![0, 0] : Fin 2 → Nat) = fun _ => 0 := funext fun a => by fin_cases a <;> rfl

/-- Row `y`, column `q` of what the body stores is the one-product cell of the loaded blocks. -/
theorem body_at (x0 : Vec Ideal S4096x4 .f32) (x1 x2 : Vec Ideal S4096x128 .f32) (x3 : Vec Ideal S256x128 .f32)
    (x4 : Vec Ideal S4x384 .f32) (x5 : Vec Ideal S1x384 .f32) (x6 : Vec Ideal S128x384 .f32) (x7 : Vec Ideal S1x384 .f32)
    (y : Fin 4096) (q : Fin 128) :
    out0_8 x0 x1 x2 x3 x4 x5 x6 x7 (ix2 y q)
      = cellK (fun k => x0 (ix2 y k))
          (fusedK (fun j => concatenate S4096x256 1 [⟨S4096x128, x1⟩, ⟨S4096x128, x2⟩]
            concatenates_S4096x128_S4096x128_S4096x256_d1 (ix2 y j)) (fun j k => x3 (ix2 j k)))
          (fun k c => x4 (ix2 k c)) (fun c => x5 (ix2 (0 : Fin 1) c)) (fun k c => x6 (ix2 k c))
          (fun c => x7 (ix2 (0 : Fin 1) c)) q := by
  unfold out0_8
  rw [View.canon_unit_zero zero_offsets]
  simp only [View.ld_unit_zero (S := S4096x128) zero_offsets, View.ld_unit_zero (S := S256x128) zero_offsets,
    View.ld_unit_zero (S := S4096x4) zero_offsets, View.ld_unit_zero (S := S4x384) zero_offsets,
    View.ld_unit_zero (S := S1x384) zero_offsets, View.ld_unit_zero (S := S128x384) zero_offsets]
  rw [gates_at, whole_matrix]
  simp only [reset_band, update_band, candidate_band, fused_at]
  rfl

end Cert.Body

end
-- ==== Proof.Operands.lean ====
/-
  The operands the host prepares before the kernel is launched, entry by entry.

  Before the launch the host lays the two fusion matrices one above the other, [U1 ; U2] (256 × 128); views the input bias as
  one row (1 × 384); lays the two hidden matrices side by side, [Whrz | Whn] (128 × 384); and builds the hidden bias row
  [0 … 0 | bhn] (1 × 384): 256 zeros followed by `bhn` viewed as a row. Read at an entry:
    • rows j and 128 + j of [U1 ; U2] are row j of U1 and of U2;
    • the bias row's entry c is the bias vector's entry c (the added unit axis contributes nothing to the position);
    • columns q, 128 + q, 256 + q of [Whrz | Whn] are columns q and 128 + q of Whrz and column q of Whn;
    • entries q and 128 + q of the hidden bias row are the constant zero, and entry 256 + q is bhn's entry q.
-/
import proofs.«127192_j5308579578437_2_alg».proof.Proof.Gen.KernelIdeal.Frame
import proofs.«127192_j5308579578437_2_alg».proof.Proof.Cell
import Idealize.ShloMosaic.Lib.StableHlo.Run
import Idealize.ShloMosaic.Lib.ValueLayout
import Idealize.ShloMosaic.Lib.Pipeline.Value
import Idealize.ShloMosaic.Lib.ValueIdx
import Idealize.ShloMosaic.PureOps.Ideal.Laws

noncomputable section

namespace Cert.Operands

open Cert.KernelIdeal Cert.KernelIdeal.Gen Cert.Cell Idealize.ShloMosaic Idealize.ShloMosaic.TcCoe Idealize.SL.Sem
open Idealize.ShloMosaic.StableHlo Idealize.ShloMosaic.ValueIdx

variable (m : (ℓ : Loc nD τ sig) → Buf (Elt Ideal) ℓ) (c : Dev nD)

/-! ## What the region finds in the four prepared arrays -/

/-- The 256 × 128 array is U1 above U2. -/
theorem stackedU : (V m c main_v0 : S256x128.Idx → EReal)
    = concatenate S256x128 0 [⟨S128x128, m ((c : Thread nD τ).loc main_arg3)⟩, ⟨S128x128, m ((c : Thread nD τ).loc main_arg4)⟩]
        concatenates_S128x128_S128x128_S256x128_d0 := by
  unfold V; after_results

/-- The 1 × 384 array is the input bias viewed as a row. -/
theorem inputBiasRow : (V m c main_v1 : S1x384.Idx → EReal)
    = shapeCast S1x384 (m ((c : Thread nD τ).loc main_arg6)) shapeCasts_S384_S1x384 := by
  unfold V; after_results; rfl

/-- The 128 × 384 array is Whrz beside Whn. -/
theorem joinedWh : (V m c main_v2 : S128x384.Idx → EReal)
    = concatenate S128x384 1 [⟨S128x256, m ((c : Thread nD τ).loc main_arg7)⟩, ⟨S128x128, m ((c : Thread nD τ).loc main_arg8)⟩]
        concatenates_S128x256_S128x128_S128x384_d1 := by
  unfold V; after_results

/-- The second 1 × 384 array is 256 zeros followed by the hidden bias viewed as a row. -/
theorem hiddenBiasRow : (V m c main_v5 : S1x384.Idx → EReal)
    = concatenate S1x384 1
        [⟨S1x256, broadcastInDim S1x256 ![] bcast_S_S1x256 (constant (F := Ideal) S_ .f32 0x00000000#32)⟩,
          ⟨S1x128, shapeCast S1x128 (m ((c : Thread nD τ).loc main_arg9)) shapeCasts_S128_S1x128⟩]
        concatenates_S1x256_S1x128_S1x384_d1 := by
  unfold V; after_results; rfl

/-! ## Their entries -/

theorem stackedU_lo (j k : Fin 128) :
    V m c main_v0 (ix2 (lo j) k) = m ((c : Thread nD τ).loc main_arg3) (ix2 j k) := by
  rw [stackedU]
  exact concatenate_pair_apply_left (s₁ := S128x128) (s₂ := S128x128) 0 _ _ _ (ix2 (lo j) k) rfl (ix2 j k) (fun d => by
    match d with
    | ⟨0, _⟩ => rfl
    | ⟨1, _⟩ => rfl)

theorem stackedU_hi (j k : Fin 128) :
    V m c main_v0 (ix2 (hi j) k) = m ((c : Thread nD τ).loc main_arg4) (ix2 j k) := by
  rw [stackedU]
  exact concatenate_pair_apply_right (s₁ := S128x128) (s₂ := S128x128) 0 _ _ _ (ix2 (hi j) k) rfl rfl (ix2 j k) (fun d hd => by
    match d with
    | ⟨0, _⟩ => exact absurd rfl hd
    | ⟨1, _⟩ => rfl) (by show j.val + 128 = 128 + j.val; omega)

theorem inputBiasRow_at (u : Fin 1) (k : Fin 384) :
    V m c main_v1 (ix2 u k) = m ((c : Thread nD τ).loc main_arg6) (ix1 k) := by
  rw [inputBiasRow]
  exact shapeCast_a_1a_apply _ _ u k

theorem joinedWh_reset (k q : Fin 128) :
    V m c main_v2 (ix2 k (c0 q)) = m ((c : Thread nD τ).loc main_arg7) (ix2 k (lo q)) := by
  rw [joinedWh]
  exact concatenate_pair_apply_left (s₁ := S128x256) (s₂ := S128x128) 1 _ _ _ (ix2 k (c0 q)) rfl (ix2 k (lo q)) (fun d => by
    match d with
    | ⟨0, _⟩ => rfl
    | ⟨1, _⟩ => rfl)

theorem joinedWh_update (k q : Fin 128) :
    V m c main_v2 (ix2 k (c1 q)) = m ((c : Thread nD τ).loc main_arg7) (ix2 k (hi q)) := by
  rw [joinedWh]
  exact concatenate_pair_apply_left (s₁ := S128x256) (s₂ := S128x128) 1 _ _ _ (ix2 k (c1 q)) rfl (ix2 k (hi q)) (fun d => by
    match d with
    | ⟨0, _⟩ => rfl
    | ⟨1, _⟩ => rfl)

theorem joinedWh_candidate (k q : Fin 128) :
    V m c main_v2 (ix2 k (c2 q)) = m ((c : Thread nD τ).loc main_arg8) (ix2 k q) := by
  rw [joinedWh]
  exact concatenate_pair_apply_right (s₁ := S128x256) (s₂ := S128x128) 1 _ _ _ (ix2 k (c2 q)) rfl rfl (ix2 k q) (fun d hd => by
    match d with
    | ⟨0, _⟩ => rfl
    | ⟨1, _⟩ => exact absurd rfl hd) (by show q.val + 256 = 256 + q.val; omega)

/-- A zero repeated over a row reads zero everywhere. -/
theorem zeros_at (i : S1x256.Idx) :
    broadcastInDim S1x256 ![] bcast_S_S1x256 (constant (F := Ideal) S_ .f32 0x00000000#32) i = 0 :=
  (broadcastInDim_apply _ bcast_S_S1x256 (constant (F := Ideal) S_ .f32 0x00000000#32) i ix0 (fun a => a.elim0)).trans
    Ideal.ofBits_zero_f32

theorem hiddenBiasRow_reset (u : Fin 1) (q : Fin 128) : V m c main_v5 (ix2 u (c0 q)) = (0 : EReal) := by
  rw [hiddenBiasRow]
  exact (concatenate_pair_apply_left (s₁ := S1x256) (s₂ := S1x128) 1 _ _ _ (ix2 u (c0 q)) rfl (ix2 u (lo q)) (fun d => by
    match d with
    | ⟨0, _⟩ => rfl
    | ⟨1, _⟩ => rfl)).trans (zeros_at _)

theorem hiddenBiasRow_update (u : Fin 1) (q : Fin 128) : V m c main_v5 (ix2 u (c1 q)) = (0 : EReal) := by
  rw [hiddenBiasRow]
  exact (concatenate_pair_apply_left (s₁ := S1x256) (s₂ := S1x128) 1 _ _ _ (ix2 u (c1 q)) rfl (ix2 u (hi q)) (fun d => by
    match d with
    | ⟨0, _⟩ => rfl
    | ⟨1, _⟩ => rfl)).trans (zeros_at _)

theorem hiddenBiasRow_candidate (u : Fin 1) (q : Fin 128) :
    V m c main_v5 (ix2 u (c2 q)) = m ((c : Thread nD τ).loc main_arg9) (ix1 q) := by
  rw [hiddenBiasRow]
  exact (concatenate_pair_apply_right (s₁ := S1x256) (s₂ := S1x128) 1 _ _ _ (ix2 u (c2 q)) rfl rfl (ix2 u q) (fun d hd => by
    match d with
    | ⟨0, _⟩ => rfl
    | ⟨1, _⟩ => exact absurd rfl hd) (by show q.val + 256 = 256 + q.val; omega)).trans
    (shapeCast_a_1a_apply _ _ u q)

end Cert.Operands

end
-- ==== Proof.Blocks.lean ====
/-
  From blocks to the whole array.

  The batch of 262144 rows is cut into 64 blocks of 4096 rows; grid point `t` reads rows 4096·t … 4096·t + 4095 of the inputs
  and of the two neighbours' hidden states, reads the four prepared operands whole, and writes rows 4096·t … 4096·t + 4095
  of the result. So row `y` of block `t` is row 4096·t + y of the batch (`row`), every entry the body reads of a blocked
  operand is the argument's entry at that row, and what point `t` writes back is block `t` of `Cell.G` of the ten argument
  arrays (`flushed_eq`): the body's one-product cell (Body.lean) of those entries is the cell (Cell.lean's
  `cellK_congr`, with the prepared operands' entries from Operands.lean). Row r of the batch lies in block r / 4096, so the
  64 blocks cover the result array (`cover`), which therefore ends holding `Cell.G` everywhere (`final`).
-/
import proofs.«127192_j5308579578437_2_alg».proof.Proof.Gen.KernelIdeal.Value
import proofs.«127192_j5308579578437_2_alg».proof.Proof.Cell
import proofs.«127192_j5308579578437_2_alg».proof.Proof.Body
import proofs.«127192_j5308579578437_2_alg».proof.Proof.Operands

set_option maxRecDepth 16384

noncomputable section

namespace Cert.Blocks

open Cert.KernelIdeal Cert.KernelIdeal.Gen Cert.Cell Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## Which block each window holds at a grid point (decided over the 64 points) -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)

/-- There are 64 grid points. -/
theorem point_lt (t : Fin cfg0.N) : t.val < 64 := lt_of_lt_of_eq t.isLt N_0

/-- Row `y` of block `t` is row `4096·t + y` of the batch. -/
def row (t : Fin cfg0.N) (y : Fin 4096) : Fin 262144 :=
  ⟨4096 * t.val + y.val, by have := point_lt t; have := y.isLt; omega⟩

/-! ## What the body reads: the blocked operands at the block's rows, the prepared operands whole -/

theorem read_inputs (c : Dev nD) (t : Fin cfg0.N) (y : Fin 4096) (k : Fin 4) :
    iblk m c 0 t (ix2 y k) = m ((c : Thread nD τ).loc main_arg0) (ix2 (row t y) k) := by
  obtain ⟨e0, e1⟩ := idx0 t
  unfold iblk
  show V m c main_arg0 (((cfg0.win 0).blk t).view.emb (ix2 y k)) = _
  rw [V_main_arg0]
  refine congrArg _ (funext fun a => Fin.ext ?_)
  match a with
  | ⟨0, _⟩ => show win0_0.index t (0 : Fin 2) * 4096 + 1 * y.val = 4096 * t.val + y.val; omega
  | ⟨1, _⟩ => show win0_0.index t (1 : Fin 2) * 4 + 1 * k.val = k.val; omega

theorem read_h1 (c : Dev nD) (t : Fin cfg0.N) (y : Fin 4096) (j : Fin 128) :
    iblk m c 1 t (ix2 y j) = m ((c : Thread nD τ).loc main_arg1) (ix2 (row t y) j) := by
  obtain ⟨e0, e1⟩ := idx1 t
  unfold iblk
  show V m c main_arg1 (((cfg0.win 1).blk t).view.emb (ix2 y j)) = _
  rw [V_main_arg1]
  refine congrArg _ (funext fun a => Fin.ext ?_)
  match a with
  | ⟨0, _⟩ => show win0_1.index t (0 : Fin 2) * 4096 + 1 * y.val = 4096 * t.val + y.val; omega
  | ⟨1, _⟩ => show win0_1.index t (1 : Fin 2) * 128 + 1 * j.val = j.val; omega

theorem read_h2 (c : Dev nD) (t : Fin cfg0.N) (y : Fin 4096) (j : Fin 128) :
    iblk m c 2 t (ix2 y j) = m ((c : Thread nD τ).loc main_arg2) (ix2 (row t y) j) := by
  obtain ⟨e0, e1⟩ := idx2 t
  unfold iblk
  show V m c main_arg2 (((cfg0.win 2).blk t).view.emb (ix2 y j)) = _
  rw [V_main_arg2]
  refine congrArg _ (funext fun a => Fin.ext ?_)
  match a with
  | ⟨0, _⟩ => show win0_2.index t (0 : Fin 2) * 4096 + 1 * y.val = 4096 * t.val + y.val; omega
  | ⟨1, _⟩ => show win0_2.index t (1 : Fin 2) * 128 + 1 * j.val = j.val; omega

theorem read_stackedU (c : Dev nD) (t : Fin cfg0.N) (j : Fin 256) (k : Fin 128) :
    iblk m c 3 t (ix2 j k) = V m c main_v0 (ix2 j k) := by
  obtain ⟨e0, e1⟩ := idx3 t
  unfold iblk
  show V m c main_v0 (((cfg0.win 3).blk t).view.emb (ix2 j k)) = _
  refine congrArg _ (funext fun a => Fin.ext ?_)
  match a with
  | ⟨0, _⟩ => show win0_3.index t (0 : Fin 2) * 256 + 1 * j.val = j.val; omega
  | ⟨1, _⟩ => show win0_3.index t (1 : Fin 2) * 128 + 1 * k.val = k.val; omega

theorem read_inputWeights (c : Dev nD) (t : Fin cfg0.N) (k : Fin 4) (d : Fin 384) :
    iblk m c 4 t (ix2 k d) = m ((c : Thread nD τ).loc main_arg5) (ix2 k d) := by
  obtain ⟨e0, e1⟩ := idx4 t
  unfold iblk
  show V m c main_arg5 (((cfg0.win 4).blk t).view.emb (ix2 k d)) = _
  rw [V_main_arg5]
  refine congrArg _ (funext fun a => Fin.ext ?_)
  match a with
  | ⟨0, _⟩ => show win0_4.index t (0 : Fin 2) * 4 + 1 * k.val = k.val; omega
  | ⟨1, _⟩ => show win0_4.index t (1 : Fin 2) * 384 + 1 * d.val = d.val; omega

theorem read_inputBias (c : Dev nD) (t : Fin cfg0.N) (u : Fin 1) (d : Fin 384) :
    iblk m c 5 t (ix2 u d) = V m c main_v1 (ix2 u d) := by
  obtain ⟨e0, e1⟩ := idx5 t
  unfold iblk
  show V m c main_v1 (((cfg0.win 5).blk t).view.emb (ix2 u d)) = _
  refine congrArg _ (funext fun a => Fin.ext ?_)
  match a with
  | ⟨0, _⟩ => show win0_5.index t (0 : Fin 2) * 1 + 1 * u.val = u.val; omega
  | ⟨1, _⟩ => show win0_5.index t (1 : Fin 2) * 384 + 1 * d.val = d.val; omega

theorem read_joinedWh (c : Dev nD) (t : Fin cfg0.N) (k : Fin 128) (d : Fin 384) :
    iblk m c 6 t (ix2 k d) = V m c main_v2 (ix2 k d) := by
  obtain ⟨e0, e1⟩ := idx6 t
  unfold iblk
  show V m c main_v2 (((cfg0.win 6).blk t).view.emb (ix2 k d)) = _
  refine congrArg _ (funext fun a => Fin.ext ?_)
  match a with
  | ⟨0, _⟩ => show win0_6.index t (0 : Fin 2) * 128 + 1 * k.val = k.val; omega
  | ⟨1, _⟩ => show win0_6.index t (1 : Fin 2) * 384 + 1 * d.val = d.val; omega

theorem read_hiddenBias (c : Dev nD) (t : Fin cfg0.N) (u : Fin 1) (d : Fin 384) :
    iblk m c 7 t (ix2 u d) = V m c main_v5 (ix2 u d) := by
  obtain ⟨e0, e1⟩ := idx7 t
  unfold iblk
  show V m c main_v5 (((cfg0.win 7).blk t).view.emb (ix2 u d)) = _
  refine congrArg _ (funext fun a => Fin.ext ?_)
  match a with
  | ⟨0, _⟩ => show win0_7.index t (0 : Fin 2) * 1 + 1 * u.val = u.val; omega
  | ⟨1, _⟩ => show win0_7.index t (1 : Fin 2) * 384 + 1 * d.val = d.val; omega

/-- Entry `(y, q)` of the output block at point `t` is entry `(4096·t + y, q)` of the result array. -/
theorem out_entry (t : Fin cfg0.N) (y : Fin 4096) (q : Fin 128) :
    ((cfg0.win 8).blk t).view.emb (ix2 y q) = ix2 (row t y) q := by
  obtain ⟨e0, e1⟩ := idx8 t
  refine funext fun a => Fin.ext ?_
  match a with
  | ⟨0, _⟩ => show win0_8.index t (0 : Fin 2) * 4096 + 1 * y.val = 4096 * t.val + y.val; omega
  | ⟨1, _⟩ => show win0_8.index t (1 : Fin 2) * 128 + 1 * q.val = q.val; omega

/-! ## What each point writes back -/

/-- What point `t` writes back is block `t` of the cell, row by row, of the ten argument arrays. -/
theorem flushed_eq (c : Dev nD) (t : Fin cfg0.N) :
    (dats m 0 c).flushed 8 t
      = ((cfg0.win 8).blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  rw [Cert.KernelIdeal.Value.flushed8]
  funext j
  obtain ⟨y, q, rfl⟩ : ∃ (y : Fin 4096) (q : Fin 128), j = ix2 y q := ⟨j 0, j 1, eq_ix2 (n0 := 4096) (n1 := 128) j⟩
  show out0_8 (iblk m c 0 t) (iblk m c 1 t) (iblk m c 2 t) (iblk m c 3 t) (iblk m c 4 t) (iblk m c 5 t) (iblk m c 6 t) (iblk m c 7 t) (ix2 y q)
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (((cfg0.win 8).blk t).view.emb (ix2 y q))
  rw [out_entry t y q]
  refine (Cert.Body.body_at (iblk m c 0 t) (iblk m c 1 t) (iblk m c 2 t) (iblk m c 3 t) (iblk m c 4 t) (iblk m c 5 t) (iblk m c 6 t) (iblk m c 7 t) y q).trans ?_
  show _ = Gat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (row t y) q
  unfold Gat
  exact cellK_congr _ _ _ _ _ _ _ _ _ _ _ _ _
    (fun k => read_inputs m c t y k)
    (fun k => fusedK_eq _ _ _ _ _ _
      (fun j => (Cert.Body.join_lo _ _ _ y j).trans (read_h1 m c t y j))
      (fun j => (Cert.Body.join_hi _ _ _ y j).trans (read_h2 m c t y j))
      (fun j k => (read_stackedU m c t (lo j) k).trans (Cert.Operands.stackedU_lo m c j k))
      (fun j k => (read_stackedU m c t (hi j) k).trans (Cert.Operands.stackedU_hi m c j k)) k)
    (fun k d => read_inputWeights m c t k d)
    (fun d => (read_inputBias m c t 0 d).trans (Cert.Operands.inputBiasRow_at m c 0 d))
    (fun k q => (read_joinedWh m c t k (c0 q)).trans (Cert.Operands.joinedWh_reset m c k q))
    (fun k q => (read_joinedWh m c t k (c1 q)).trans (Cert.Operands.joinedWh_update m c k q))
    (fun k q => (read_joinedWh m c t k (c2 q)).trans (Cert.Operands.joinedWh_candidate m c k q))
    (fun q => (read_hiddenBias m c t 0 (c0 q)).trans (Cert.Operands.hiddenBiasRow_reset m c 0 q))
    (fun q => (read_hiddenBias m c t 0 (c1 q)).trans (Cert.Operands.hiddenBiasRow_update m c 0 q))
    (fun q => (read_hiddenBias m c t 0 (c2 q)).trans (Cert.Operands.hiddenBiasRow_candidate m c 0 q)) q

/-! ## The blocks cover the result -/

/-- An entry of the result array is in point `t`'s block iff each coordinate is in the block's range on its axis. -/
theorem mem_block (t : Fin cfg0.N) (i : S262144x128.Idx) :
    i ∈ ((cfg0.win 8).blk t).view.set ↔ ∀ a : Fin 2, win0_8.index t a * S4096x128.size a ≤ (i a).val
      ∧ (i a).val < win0_8.index t a * S4096x128.size a + S4096x128.size a := by
  show i ∈ ((View.whole main_v6).slice (win0_8.rect t)).set ↔ _
  rw [View.set_slice_whole, Rect.mem_set_unit]
  exact Iff.rfl

/-- Row `r` of the result lies in block `r / 4096`: every entry is in some point's block. -/
theorem cover (i : S262144x128.Idx) :
    ∃ t : Fin cfg0.N, (cfg0.win 8).flush t = true ∧ i ∈ ((cfg0.win 8).blk t).view.set := by
  have h0 : (i 0).val < 262144 := (i 0).isLt
  have h1 : (i 1).val < 128 := (i 1).isLt
  have hN : grid0.N = 64 := N_0
  have ht : (i 0).val / 4096 < cfg0.N := by show (i 0).val / 4096 < grid0.N; omega
  obtain ⟨e0, e1⟩ := idx8 ⟨(i 0).val / 4096, ht⟩
  have e0' : win0_8.index ⟨(i 0).val / 4096, ht⟩ (0 : Fin 2) = (i 0).val / 4096 := e0
  refine ⟨⟨(i 0).val / 4096, ht⟩, flush0_8 _, ?_⟩
  rw [mem_block]
  intro a
  match a with
  | ⟨0, _⟩ =>
    show win0_8.index ⟨(i 0).val / 4096, ht⟩ (0 : Fin 2) * 4096 ≤ (i 0).val
      ∧ (i 0).val < win0_8.index ⟨(i 0).val / 4096, ht⟩ (0 : Fin 2) * 4096 + 4096
    omega
  | ⟨1, _⟩ =>
    show win0_8.index ⟨(i 0).val / 4096, ht⟩ (1 : Fin 2) * 128 ≤ (i 1).val
      ∧ (i 1).val < win0_8.index ⟨(i 0).val / 4096, ht⟩ (1 : Fin 2) * 128 + 128
    omega

/-! ## The result array, and the run -/

/-- After the run the result array holds the cell of the ten argument arrays, row by row. -/
theorem final (c : Dev nD) :
    (dats m 0 c).arrAt 8 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (dats m 0 c).arrAt_eq_of_cover 8 _ (fun t _ => flushed_eq m c t) cover

/-- The kernel's program runs to a state whose result array is `Cell.G` of its arguments, the arguments unchanged. -/
theorem run : θ_run defs (onTc (τ := τ) (main (F := Ideal))) ⟨m, fun _ => 0, ρ⟩ fun r => ∀ c : Dev nD,
      r.2.mem ((c : Thread nD τ).loc main_v6) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩)
    (Cert.KernelIdeal.Value.run_blocks m ρ)

end Cert.Blocks

end
-- ==== Proof.lean ====
/-
  One step of a recurrent cell over a batch of 262144 samples: the kernel and its reference compute the same array.

  For each sample the two neighbours' hidden rows are fused, h = h1·U1 + h2·U2, and a gated update is applied:
  with a = x·Wi + bi read in three bands of 128 columns, r = σ(a₀ + h·Whrz₀), z = σ(a₁ + h·Whrz₁),
  n = tanh(a₂ + r·(h·Whn + bhn)), the new hidden row is (1 − z)·n + z·h (Proof/Cell.lean, `Cell.G`).

  The reference computes exactly this, one operation at a time (Proof/RefCell.lean). The kernel works on blocks of 4096
  rows and arranges the arithmetic differently: one product over the 256 joined positions [h1 | h2]·[U1 ; U2] for the
  fusion, the input projection accumulated onto its bias one feature at a time, and one 384-column product
  h·[Whrz | Whn] + [0 | 0 | bhn] for the three hidden projections, with a change to sixteen-bit floats before each
  product (Proof/Body.lean, over the operands the host prepares, Proof/Operands.lean). Over the extended reals a change
  of float format is the identity, a sum over 256 indices is the sum of its two halves, addition is associative and
  commutative, and x + 0 = x; so each block the kernel writes is that block of `Cell.G`, and the 64 blocks cover the
  result (Proof/Blocks.lean). None of these laws needs a finite operand, so the precondition is never opened.

  The kernel's idealization rewrote no operation, so there is nothing to preserve beyond the program's own text.
-/
import proofs.«127192_j5308579578437_2_alg».proof.Defs
import proofs.«127192_j5308579578437_2_alg».proof.Proof.Gen.Kernel
import proofs.«127192_j5308579578437_2_alg».proof.Proof.Gen.Kernel.Skeleton
import proofs.«127192_j5308579578437_2_alg».proof.Proof.Gen.Kernel.Launch
import proofs.«127192_j5308579578437_2_alg».proof.Proof.Gen.Kernel.Points
import proofs.«127192_j5308579578437_2_alg».proof.Proof.Gen.Kernel.Frame
import proofs.«127192_j5308579578437_2_alg».proof.Proof.Gen.KernelIdeal
import proofs.«127192_j5308579578437_2_alg».proof.Proof.Gen.KernelIdeal.Skeleton
import proofs.«127192_j5308579578437_2_alg».proof.Proof.Gen.KernelIdeal.Launch
import proofs.«127192_j5308579578437_2_alg».proof.Proof.Gen.KernelIdeal.Points
import proofs.«127192_j5308579578437_2_alg».proof.Proof.Gen.KernelIdeal.Frame
import proofs.«127192_j5308579578437_2_alg».proof.Proof.Gen.ReferenceIdeal
import proofs.«127192_j5308579578437_2_alg».proof.Proof.Gen.Pre_finite_inputs
import proofs.«127192_j5308579578437_2_alg».proof.Proof.Gen.KernelIdeal.Value
import proofs.«127192_j5308579578437_2_alg».proof.Proof.Gen.ReferenceIdeal.Run
import proofs.«127192_j5308579578437_2_alg».proof.Proof.Gen.ReferenceIdeal.Read
import proofs.«127192_j5308579578437_2_alg».proof.Proof.Cell
import proofs.«127192_j5308579578437_2_alg».proof.Proof.RefCell
import proofs.«127192_j5308579578437_2_alg».proof.Proof.Blocks
import Idealize.ShloMosaic.Adequacy
import Idealize.ShloMosaic.Init

noncomputable section

namespace Cert.Proof

open Idealize.ShloMosaic Idealize.ShloMosaic.TcCoe Idealize.SL.Sem Cert.Cell

/-- The word-level kernel runs, without a fault, and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2.2)
    (Cert.ReferenceIdeal.Value.run (F := Ideal) m ρ)

/-- From memories that agree on the ten arguments, the kernel and the reference both end with the result array holding
    the cell of the arguments, row by row. -/
theorem algebraic : Cert.algebraic_KernelIdeal_ReferenceIdeal := by
  intro m ρ m' ρ' _ hagree
  refine ⟨fun c => G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)),
    fun c => G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono (fun _ h c => ⟨(h c).1, (h c).1, (h c).2⟩) (Cert.Blocks.run m ρ)
  · refine (θ_run Cert.ReferenceIdeal.defs _ _).mono (fun r h c => ?_)
      (Cert.ReferenceIdeal.Value.run (F := Ideal) m' ρ')
    obtain ⟨a0, a1, a2, a3, a4, a5, a6, a7, a8, a9⟩ := hagree c
    have hres : r.2.mem ((c.tc : Thread Cert.ReferenceIdeal.nD Cert.ReferenceIdeal.τ).loc Cert.ReferenceIdeal.main_v38)
        = G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)) := by
      refine (h c).1.trans ((Cert.ReferenceIdeal.Read.val_main_v38_eq m' c).trans ((Cert.RefCell.ref_eq
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))).trans ?_))
      rw [a0, a1, a2, a3, a4, a5, a6, a7, a8, a9]
    exact ⟨hres, hres, (h c).2.2⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
